-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 15
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S8192x4096, .f32⟩
  | .hbm, ⟨14, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  bcast_S_S4096x4096 : S_.BroadcastsInDim S4096x4096 (![] : Fin 0 → Fin S4096x4096.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.SumLaws.lean ====
/-
  Two laws the two programs differ by, over no program.

  * A sum over `A * B` consecutive naturals is the sum, block by block, of `A` blocks of `B` terms: the kernel
    contracts the 4096 input features in 8 blocks of 512 and adds the block sums up, the reference contracts them at once.
    Addition is only regrouped, so this holds in every commutative monoid — on the extended reals too, infinities included.
  * For a REAL `w` and ANY extended real `q`, `w + (q - w) = q`: the reference forms the straight-through weight
    `w + (q - w)` where the kernel uses the ternary weight `q` itself. For `w = ±∞` it fails (`⊤ + (q - ⊤) = ⊥`),
    which is where the weights' finiteness is used.
-/
import Idealize.ShloMosaic.PureOps.Ideal

namespace TernaryLinear

/-- `A` consecutive blocks of `B` terms each, summed block by block, are the `A * B` terms summed at once. -/
theorem sum_blocks {M : Type*} [AddCommMonoid M] (A B : ℕ) (f : ℕ → M) :
    ∑ a ∈ Finset.range A, ∑ b : Fin B, f (a * B + b.val) = ∑ i : Fin (A * B), f i.val := by
  rw [Finset.sum_range (fun a => ∑ b : Fin B, f (a * B + b.val)),
    ← Fintype.sum_prod_type' (fun (a : Fin A) (b : Fin B) => f (a.val * B + b.val)),
    ← Equiv.sum_comp finProdFinEquiv (fun i : Fin (A * B) => f i.val)]
  refine Finset.sum_congr rfl fun x _ => ?_
  rw [finProdFinEquiv_apply_val, Nat.mul_comm, Nat.add_comm]

/-- Adding a real `w` to `q - w` gives back `q`, for every extended real `q`. -/
theorem add_sub_cancel_real (w q : EReal) (hT : w ≠ ⊤) (hB : w ≠ ⊥) : w + (q - w) = q := by
  lift w to ℝ using ⟨hT, hB⟩
  induction q using EReal.rec with
  | bot => simp
  | top => simp
  | coe q => norm_cast; ring

end TernaryLinear
-- ==== Proof.Spec.lean ====
/-
  What both programs compute, as ONE function of the three argument arrays, index by index.

  `x` is f32[4, 2048, 4096] (batch, sequence, input feature), `w` f32[4096, 4096] (output feature, input feature),
  `b` f32[4096]. Each weight is replaced by its ternary value — its sign where its magnitude exceeds 0.1 (the f32 word
  0x3DCCCCCD, the same word in both programs, never evaluated), zero elsewhere — and the result at (batch, position,
  output feature `o`) is the contraction over the 4096 input features of `x` with row `o` of the ternary weights,
  plus `b o`.
-/
import proofs.«166621_j75874892251910_2_alg».proof.Proof.SumLaws
import Idealize.ShloMosaic.Lib.ValueIdx

noncomputable section

namespace TernaryLinear

open Idealize.ShloMosaic Idealize.ShloMosaic.ValueIdx

/-- The ternary value of one weight: `sign w` where `|w| > 0.1`, else `0` — the sign times the comparison read as 0 or 1. -/
def tern (w : EReal) : EReal :=
  FloatOps.mulf (F := Ideal) (φ := .f32) (FloatOps.hostUnary (F := Ideal) (φ := .f32) .sign w)
    (FloatOps.uitofp (F := Ideal) .f32
      (FloatOps.cmpf (F := Ideal) (φ := .f32) .ogt (FloatOps.hostAbsf (F := Ideal) (φ := .f32) w) (FloatOps.ofBits (F := Ideal) .f32 0x3DCCCCCD#32)))

/-- The layer at batch `a`, position `s`, output feature `o`: `∑ₖ x[a, s, k] · tern w[o, k] + bias[o]`. -/
def linearAt (x : (⟨3, ![4, 2048, 4096]⟩ : Shape).Idx → EReal) (w : (⟨2, ![4096, 4096]⟩ : Shape).Idx → EReal)
    (b : (⟨1, ![4096]⟩ : Shape).Idx → EReal) (a : Fin 4) (s : Fin 2048) (o : Fin 4096) : EReal :=
  (∑ k : Fin 4096, x (ix3 a s k) * tern (w (ix2 o k))) + b (ix1 o)

/-- The layer as an array. -/
def linear (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun i => linearAt x w b (i 0) (i 1) (i 2)

end TernaryLinear

end
-- ==== Proof.RefRead.lean ====
/-
  The reference computes the layer: read one operation at a time, its result at (batch, position, `o`) is the sum over
  the input features `k` of `x[b, s, k] · (w[o, k] + (tern w[o, k] - w[o, k]))`, plus `bias[o]`; and a REAL weight added
  to (anything minus itself) leaves that thing, so with finite weights each factor is the ternary weight itself.
-/
import proofs.«166621_j75874892251910_2_alg».proof.Proof.Gen.ReferenceIdeal.Run
import proofs.«166621_j75874892251910_2_alg».proof.Proof.Gen.ReferenceIdeal.Read
import proofs.«166621_j75874892251910_2_alg».proof.Proof.Spec

noncomputable section

namespace Cert.ReferenceIdeal.RefValue

open Cert.ReferenceIdeal Cert.ReferenceIdeal.Read Idealize.ShloMosaic Idealize.ShloMosaic.ValueIdx TernaryLinear

/-- With every weight a real number, the reference's result is the layer of its three arguments. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (hw : ∀ j, x1 j ≠ (⊤ : EReal) ∧ x1 j ≠ (⊥ : EReal)) :
    val_main_v11 (F := Ideal) x0 x1 x2 = linear x0 x1 x2 := by
  funext i
  obtain ⟨a, s, o, rfl⟩ : ∃ (a : Fin 4) (s : Fin 2048) (o : Fin 4096), i = ix3 a s o := ⟨i 0, i 1, i 2, eq_ix3 i⟩
  rw [val_main_v11_apply, val_main_v8_apply, val_main_v10_apply, val_main_v9_apply]
  show (∑ k : Fin 4096, x0 (lidx_main_v8 (ix3 a s o) k) * val_main_v7 (F := Ideal) x1 (ridx_main_v8 (ix3 a s o) k))
      + x2 (idx_main_v9 (idx_main_v10 (ix3 a s o))) = linearAt x0 x1 x2 a s o
  unfold linearAt
  congr 1
  · refine Finset.sum_congr rfl fun k _ => ?_
    have el : lidx_main_v8 (ix3 a s o) k = ix3 a s k := funext fun d => by
      match d with | ⟨0, _⟩ => rfl | ⟨1, _⟩ => rfl | ⟨2, _⟩ => rfl
    have er : ridx_main_v8 (ix3 a s o) k = ix2 o k := funext fun d => by
      match d with | ⟨0, _⟩ => rfl | ⟨1, _⟩ => rfl
    rw [el, er, val_main_v7_apply, val_main_v6_apply, val_main_v5_apply, val_main_v4_apply, val_main_v3_apply,
      val_main_v1_apply, val_main_v2_apply, val_main_v0_apply]
    show x0 _ * (x1 (ix2 o k) + (tern (x1 (ix2 o k)) - x1 (ix2 o k))) = _
    rw [add_sub_cancel_real _ _ (hw _).1 (hw _).2]
  · exact congrArg x2 (funext fun d => by match d with | ⟨0, _⟩ => rfl)

end Cert.ReferenceIdeal.RefValue

end
-- ==== Proof.BodyCases.lean ====
/-
  What one grid point leaves in the output block, in each of the body's three cases, as the body's own arithmetic of the
  blocks it loads — at any float instance.

  The output block [1024, 2048] stays in place over the 8 consecutive points that share its (row block, column block) and
  differ in the input-feature block `k`. With `x` the point's [1024, 512] block of the activations, `q` its [2048, 512]
  block of the ternary weights, `acc` what the point before left and `bias` the [1, 2048] block of the bias:
    * `k = 0`:      the block is zeroed, read back, and left at `0 + x · qᵀ`;
    * `0 < k < 7`:  it is left at `acc + x · qᵀ`;
    * `k = 7`:      it is left at `(acc + x · qᵀ) + bias`, the bias row added to every row.
-/
import proofs.«166621_j75874892251910_2_alg».proof.Proof.Gen.KernelIdeal.Frame
import Idealize.ShloMosaic.Lib.Pipeline.Value
import Idealize.ShloMosaic.Lib.Tactic

noncomputable section

namespace Cert.KernelIdeal.BodyValue

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A middle point adds its product to what the point before left. -/
theorem out_B (c : Dev nD) (i : grid0.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (hc0 : ¬cond0_0 i) (hc1 : ¬cond0_1 i)
    (x0 : Vec F S1024x512 .f32) (x1 : Vec F S2048x512 .bf16) (x2 : Vec F S1x2048 .f32) (xo : Vec F S1024x2048 .f32) :
    out0_B_3 c i a3 h3 a4 h4 a5 h5 a6 h6 hc0 hc1 x0 x1 x2 xo = k0_pay2 x0 x1 xo := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero hz]
  simp only [View.readAt_eq_ld, h3.read_unread, h4.read_unread, h5.read_unread, h6.read_unread,
    View.ld_unit_zero (S := S1024x512) hz, View.ld_unit_zero (S := S2048x512) hz, View.ld_unit_zero (S := S1x2048) hz,
    View.ld_unit_zero (S := S1024x2048) hz]

/-- The first point of a run zeroes the block and adds its product to the zeros. -/
theorem out_A (c : Dev nD) (i : grid0.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (hc0 : cond0_0 i) (hc1 : ¬cond0_1 i)
    (x0 : Vec F S1024x512 .f32) (x1 : Vec F S2048x512 .bf16) (x2 : Vec F S1x2048 .f32) :
    out0_A_3 c i a3 h3 a4 h4 a5 h5 a6 h6 hc0 hc1 x0 x1 x2 = k0_pay2 x0 x1 (k0_pay1 (F := F)) := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S1024x2048) hz, View.readCov_unit_zero (S := S1024x2048) _ hz]
  simp only [View.readAt_eq_ld, h3.read_unread, h4.read_unread, h5.read_unread, h6.read_unread,
    View.ld_unit_zero (S := S1024x512) hz, View.ld_unit_zero (S := S2048x512) hz, View.ld_unit_zero (S := S1x2048) hz,
    View.ld_unit_zero (S := S1024x2048) hz]

/-- The last point of a run adds its product, reads the block back, and adds the bias row. -/
theorem out_C (c : Dev nD) (i : grid0.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (hc0 : ¬cond0_0 i) (hc1 : cond0_1 i)
    (x0 : Vec F S1024x512 .f32) (x1 : Vec F S2048x512 .bf16) (x2 : Vec F S1x2048 .f32) (xo : Vec F S1024x2048 .f32) :
    out0_C_3 c i a3 h3 a4 h4 a5 h5 a6 h6 hc0 hc1 x0 x1 x2 xo = k0_pay3 (k0_pay2 x0 x1 xo) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread,
    View.ld_unit_zero (S := S1024x512) hz, View.ld_unit_zero (S := S2048x512) hz, View.ld_unit_zero (S := S1x2048) hz,
    View.ld_unit_zero (S := S1024x2048) hz]

end Cert.KernelIdeal.BodyValue

end
-- ==== Proof.PayloadAt.lean ====
/-
  The body's three stored values read at one entry (row `p`, column `q`) of the [1024, 2048] block, on the extended reals:
  the zero block is `0`; the accumulation is `acc[p, q] + ∑_{κ < 512} x[p, κ] · w[q, κ]` (the matrix unit contracts the last
  axis of both operands into a zero accumulator, and narrowing `x` to bf16 changes nothing here); the finish adds `bias[0, q]`.
-/
import proofs.«166621_j75874892251910_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Idealize.ShloMosaic Idealize.ShloMosaic.ValueIdx
open Cert.KernelIdeal Cert.KernelIdeal.Gen

/-- The zero block holds the real number zero. -/
theorem pay1_apply (p : Fin 1024) (q : Fin 2048) : k0_pay1 (F := Ideal) (ix2 p q) = 0 := by
  show Ideal.ofBits .f32 0x00000000#32 = 0
  exact Ideal.ofBits_zero_f32

/-- The matrix unit's left operand is read at (the output's row, the contracted position), -/
theorem lhs_row (j : S1024x2048.Idx) (k : dot_S1024x512_S2048x512_S1024x2048_1_1_0_0_n_n.contr.Idx) : (dot_S1024x512_S2048x512_S1024x2048_1_1_0_0_n_n.lhsIdx j k 0).val = (j 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
theorem lhs_col (j : S1024x2048.Idx) (k : dot_S1024x512_S2048x512_S1024x2048_1_1_0_0_n_n.contr.Idx) : (dot_S1024x512_S2048x512_S1024x2048_1_1_0_0_n_n.lhsIdx j k 1).val = (k ⟨0, by decide⟩).val :=
  dot_S1024x512_S2048x512_S1024x2048_1_1_0_0_n_n.lhsIdx_val_of_single rfl j k
/-- its right operand at (the output's column, the contracted position). -/
theorem rhs_row (j : S1024x2048.Idx) (k : dot_S1024x512_S2048x512_S1024x2048_1_1_0_0_n_n.contr.Idx) : (dot_S1024x512_S2048x512_S1024x2048_1_1_0_0_n_n.rhsIdx j k 0).val = (j 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
theorem rhs_col (j : S1024x2048.Idx) (k : dot_S1024x512_S2048x512_S1024x2048_1_1_0_0_n_n.contr.Idx) : (dot_S1024x512_S2048x512_S1024x2048_1_1_0_0_n_n.rhsIdx j k 1).val = (k ⟨0, by decide⟩).val :=
  dot_S1024x512_S2048x512_S1024x2048_1_1_0_0_n_n.rhsIdx_val_of_single rfl j k

/-- One point's accumulation at an entry: what was there plus the 512-term product sum of row `p` of the activation block
    with row `q` of the weight block. -/
theorem pay2_apply (x0 : Vec Ideal S1024x512 .f32) (x1 : Vec Ideal S2048x512 .bf16) (xo : Vec Ideal S1024x2048 .f32)
    (p : Fin 1024) (q : Fin 2048) :
    k0_pay2 (F := Ideal) x0 x1 xo (ix2 p q) = xo (ix2 p q) + ∑ κ : Fin 512, x0 (ix2 p κ) * x1 (ix2 q κ) := by
  show addf (F := Ideal) (shapeCast S1024x2048 xo shapeCasts_S1024x2048_S1024x2048 : FVec Ideal S1024x2048 .f32)
      (matmul (F := Ideal) dot_S1024x512_S2048x512_S1024x2048_1_1_0_0_n_n none
        (truncf (F := Ideal) .bf16 (shapeCast S1024x512 x0 shapeCasts_S1024x512_S1024x512 : FVec Ideal S1024x512 .f32) bitsLt_bf16_f32)
        (shapeCast S2048x512 x1 shapeCasts_S2048x512_S2048x512 : FVec Ideal S2048x512 .bf16)
        (constant (F := Ideal) S1024x2048 .f32 0x00000000#32)) (ix2 p q) = _
  rw [shapeCast_self, shapeCast_self, shapeCast_self, addf_apply]
  congr 1
  simp only [matmul]
  rw [Ideal.matmul_constant_zero_apply,
    ← Equiv.sum_comp (contrEquiv1 dot_S1024x512_S2048x512_S1024x2048_1_1_0_0_n_n 512 rfl rfl).symm]
  refine Finset.sum_congr rfl fun κ _ => ?_
  have hk := contrEquiv1_symm_val dot_S1024x512_S2048x512_S1024x2048_1_1_0_0_n_n 512 rfl rfl κ
  have el : dot_S1024x512_S2048x512_S1024x2048_1_1_0_0_n_n.lhsIdx (ix2 p q)
      ((contrEquiv1 dot_S1024x512_S2048x512_S1024x2048_1_1_0_0_n_n 512 rfl rfl).symm κ) = ix2 p κ := funext fun a => Fin.ext (by
    match a with
    | ⟨0, _⟩ => exact lhs_row _ _
    | ⟨1, _⟩ => exact (lhs_col _ _).trans hk)
  have er : dot_S1024x512_S2048x512_S1024x2048_1_1_0_0_n_n.rhsIdx (ix2 p q)
      ((contrEquiv1 dot_S1024x512_S2048x512_S1024x2048_1_1_0_0_n_n 512 rfl rfl).symm κ) = ix2 q κ := funext fun a => Fin.ext (by
    match a with
    | ⟨0, _⟩ => exact rhs_row _ _
    | ⟨1, _⟩ => exact (rhs_col _ _).trans hk)
  rw [el, er]
  rfl

/-- The finish at an entry: what the accumulation left plus the bias of its column. -/
theorem pay3_apply (acc : Vec Ideal S1024x2048 .f32) (b : Vec Ideal S1x2048 .f32) (p : Fin 1024) (q : Fin 2048) :
    k0_pay3 (F := Ideal) acc b (ix2 p q) = acc (ix2 p q) + b (ix2 (0 : Fin 1) q) := by
  show addf (F := Ideal) (shapeCast S1024x2048 acc shapeCasts_S1024x2048_S1024x2048 : FVec Ideal S1024x2048 .f32)
      (broadcastTo S1024x2048 (shapeCast S1x2048 b shapeCasts_S1x2048_S1x2048 : FVec Ideal S1x2048 .f32)
        broadcasts_S1x2048_S1024x2048) (ix2 p q) = _
  rw [shapeCast_self, shapeCast_self, addf_apply]
  congr 1
  exact broadcastTo_apply b broadcasts_S1x2048_S1024x2048 (ix2 p q) (ix2 (0 : Fin 1) q) (fun a => by
    match a with
    | ⟨0, _⟩ => show 0 = if (1 : Nat) = 1 then 0 else _; rw [if_pos rfl]
    | ⟨1, _⟩ => show q.val = if (2048 : Nat) = 1 then 0 else q.val; rw [if_neg (by decide)])

end Cert.KernelIdeal.BodyValue

end
-- ==== Proof.Blocks.lean ====
/-
  Where each window's block sits in its array. The grid is 8 row blocks × 2 column blocks × 8 input-feature blocks, the
  last moving fastest, so point `n` has row block `n / 16`, column block `(n / 8) % 2` and feature block `n % 8`. The
  activations' block [1024, 512] is (row block, feature block), the weights' block [2048, 512] is (column block, feature
  block), the bias block [1, 2048] is (0, column block), the output block [1024, 2048] is (row block, column block).
  Arrays are read at natural-number coordinates (`at2`: zero outside the array), so that block arithmetic is plain
  arithmetic on naturals.
-/
import proofs.«166621_j75874892251910_2_alg».proof.Proof.Gen.KernelIdeal.Frame
import Idealize.ShloMosaic.Lib.Pipeline.Value
import Idealize.ShloMosaic.Lib.ValueIdx

noncomputable section

namespace Cert.KernelIdeal.BodyValue

open Idealize.ShloMosaic Idealize.ShloMosaic.TcCoe Idealize.ShloMosaic.ValueIdx Idealize.SL.Sem
open Cert.KernelIdeal Cert.KernelIdeal.Gen

/-- A rank-2 array read at natural-number coordinates; zero outside it. -/
def at2 {A B : ℕ} (f : (⟨2, ![A, B]⟩ : Shape).Idx → EReal) (r k : ℕ) : EReal :=
  if h : r < A ∧ k < B then f (ix2 ⟨r, h.1⟩ ⟨k, h.2⟩) else 0

/-- Reading at an index is reading at its coordinates. -/
theorem at2_of_idx {A B : ℕ} (f : (⟨2, ![A, B]⟩ : Shape).Idx → EReal) (j : (⟨2, ![A, B]⟩ : Shape).Idx) (r k : ℕ)
    (hr : (j 0).val = r) (hk : (j 1).val = k) : f j = at2 f r k := by
  subst hr hk
  unfold at2
  rw [dif_pos ⟨idx2_lt0 j, idx2_lt1 j⟩]
  exact congrArg f (eq_ix2 j)

theorem at2_ix2 {A B : ℕ} (f : (⟨2, ![A, B]⟩ : Shape).Idx → EReal) (a : Fin A) (b : Fin B) : at2 f a.val b.val = f (ix2 a b) :=
  (at2_of_idx f (ix2 a b) a.val b.val rfl rfl).symm

/-- The printed index maps over the grid: which block of its array each window is on at point `t`. -/
theorem idx_facts : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

variable (m : (ℓ : Loc nD τ sig) → Buf (Elt Ideal) ℓ)

/-- The activations' block at point `n`, entry (p, κ): the activations at row `(n / 16) · 1024 + p`, feature `(n % 8) · 512 + κ`. -/
theorem iblk0_apply (c : Dev nD) (n : ℕ) (h : n < cfg0.N) (p : Fin 1024) (κ : Fin 512) :
    (iblk m c 0 ⟨n, h⟩ : Vec Ideal S1024x512 .f32) (ix2 p κ)
      = at2 (V m c main_v0 : S8192x4096.Idx → EReal) (n / 16 * 1024 + p.val) (n % 8 * 512 + κ.val) := by
  obtain ⟨e0, e1, -⟩ := idx_facts ⟨n, h⟩
  unfold iblk
  rw [View.read_apply]
  refine at2_of_idx (V m c main_v0 : S8192x4096.Idx → EReal) _ _ _ ?_ ?_
  · show win0_0.index ⟨n, h⟩ (0 : Fin 2) * 1024 + 1 * p.val = _
    rw [e0]; dsimp only; omega
  · show win0_0.index ⟨n, h⟩ (1 : Fin 2) * 512 + 1 * κ.val = _
    rw [e1]; dsimp only; omega

/-- The weights' block at point `n`, entry (q, κ): the ternary weights at output feature `((n / 8) % 2) · 2048 + q`, input
    feature `(n % 8) · 512 + κ`. -/
theorem iblk1_apply (c : Dev nD) (n : ℕ) (h : n < cfg0.N) (q : Fin 2048) (κ : Fin 512) :
    (iblk m c 1 ⟨n, h⟩ : Vec Ideal S2048x512 .bf16) (ix2 q κ)
      = at2 (V m c main_v8 : S4096x4096.Idx → EReal) (n / 8 % 2 * 2048 + q.val) (n % 8 * 512 + κ.val) := by
  obtain ⟨-, -, e0, e1, -⟩ := idx_facts ⟨n, h⟩
  unfold iblk
  rw [View.read_apply]
  refine at2_of_idx (V m c main_v8 : S4096x4096.Idx → EReal) _ _ _ ?_ ?_
  · show win0_1.index ⟨n, h⟩ (0 : Fin 2) * 2048 + 1 * q.val = _
    rw [e0]; dsimp only; omega
  · show win0_1.index ⟨n, h⟩ (1 : Fin 2) * 512 + 1 * κ.val = _
    rw [e1]; dsimp only; omega

/-- The bias block at point `n`, entry (0, q): the bias of output feature `((n / 8) % 2) · 2048 + q`. -/
theorem iblk2_apply (c : Dev nD) (n : ℕ) (h : n < cfg0.N) (q : Fin 2048) :
    (iblk m c 2 ⟨n, h⟩ : Vec Ideal S1x2048 .f32) (ix2 (0 : Fin 1) q)
      = at2 (V m c main_v1 : S1x4096.Idx → EReal) 0 (n / 8 % 2 * 2048 + q.val) := by
  obtain ⟨-, -, -, -, e0, e1, -⟩ := idx_facts ⟨n, h⟩
  unfold iblk
  rw [View.read_apply]
  refine at2_of_idx (V m c main_v1 : S1x4096.Idx → EReal) _ _ _ ?_ ?_
  · show win0_2.index ⟨n, h⟩ (0 : Fin 2) * 1 + 1 * 0 = _
    rw [e0]
  · show win0_2.index ⟨n, h⟩ (1 : Fin 2) * 2048 + 1 * q.val = _
    rw [e1]; dsimp only; omega

end Cert.KernelIdeal.BodyValue

end
-- ==== Proof.Accum.lean ====
/-
  What the output block holds after every grid point, in closed form, on the extended reals.

  Write `X` for the activations as the kernel finds them ([8192, 4096]), `Q` for the ternary weights ([4096, 4096]) and `B`
  for the bias ([1, 4096]). Point `n` works on row block `r0 = n / 16`, column block `c0 = (n / 8) % 2` and feature block
  `n % 8`. After it, entry (p, q) of the output block holds the sum, over the feature blocks `0 … n % 8`, of the 512-term
  products of row `r0 · 1024 + p` of `X` with row `c0 · 2048 + q` of `Q` — and, once `n % 8 = 7`, the bias of that column
  added to it. By induction on the point: the first point of a run starts from zero, every later one adds its block's
  product to what the point before left (same row and column block, one feature block earlier), the last adds the bias.
-/
import proofs.«166621_j75874892251910_2_alg».proof.Proof.BodyCases
import proofs.«166621_j75874892251910_2_alg».proof.Proof.PayloadAt
import proofs.«166621_j75874892251910_2_alg».proof.Proof.Blocks

noncomputable section

namespace Cert.KernelIdeal.BodyValue

open Idealize.ShloMosaic Idealize.ShloMosaic.TcCoe Idealize.ShloMosaic.ValueIdx Idealize.SL.Sem
open Cert.KernelIdeal Cert.KernelIdeal.Gen

/-- Feature block `kb`'s share of the contraction of row `r` of `X` with row `o` of `Q`. -/
def dotBlk (X : S8192x4096.Idx → EReal) (Q : S4096x4096.Idx → EReal) (r o kb : ℕ) : EReal :=
  ∑ κ : Fin 512, at2 X r (kb * 512 + κ.val) * at2 Q o (kb * 512 + κ.val)

/-- Entry (p, q) of the output block after the point of row block `r0`, column block `c0`, feature block `kk`. -/
def accAt (X : S8192x4096.Idx → EReal) (Q : S4096x4096.Idx → EReal) (B : S1x4096.Idx → EReal) (r0 c0 kk p q : ℕ) : EReal :=
  (∑ kb ∈ Finset.range (kk + 1), dotBlk X Q (r0 * 1024 + p) (c0 * 2048 + q) kb)
    + (if kk = 7 then at2 B 0 (c0 * 2048 + q) else 0)

theorem accAt_zero (X : S8192x4096.Idx → EReal) (Q : S4096x4096.Idx → EReal) (B : S1x4096.Idx → EReal) (r0 c0 p q : ℕ) :
    dotBlk X Q (r0 * 1024 + p) (c0 * 2048 + q) 0 = accAt X Q B r0 c0 0 p q := by
  unfold accAt
  rw [Finset.sum_range_one, if_neg (by decide), add_zero]

theorem accAt_succ (X : S8192x4096.Idx → EReal) (Q : S4096x4096.Idx → EReal) (B : S1x4096.Idx → EReal) (r0 c0 kk p q : ℕ)
    (hk : ¬kk = 7) (hk' : ¬kk + 1 = 7) :
    accAt X Q B r0 c0 kk p q + dotBlk X Q (r0 * 1024 + p) (c0 * 2048 + q) (kk + 1) = accAt X Q B r0 c0 (kk + 1) p q := by
  unfold accAt
  rw [if_neg hk, if_neg hk', add_zero, add_zero, Finset.sum_range_succ _ (kk + 1)]

theorem accAt_last (X : S8192x4096.Idx → EReal) (Q : S4096x4096.Idx → EReal) (B : S1x4096.Idx → EReal) (r0 c0 kk p q : ℕ)
    (hk : kk + 1 = 7) :
    (accAt X Q B r0 c0 kk p q + dotBlk X Q (r0 * 1024 + p) (c0 * 2048 + q) (kk + 1)) + at2 B 0 (c0 * 2048 + q)
      = accAt X Q B r0 c0 (kk + 1) p q := by
  unfold accAt
  rw [if_neg (by omega), if_pos hk, add_zero, Finset.sum_range_succ _ (kk + 1)]

/-! The three cases at an entry, over ANY blocks that read the arrays where the point's blocks do. -/

theorem first_entry (x0 : Vec Ideal S1024x512 .f32) (x1 : Vec Ideal S2048x512 .bf16) (X : S8192x4096.Idx → EReal)
    (Q : S4096x4096.Idx → EReal) (r o kb : ℕ) (p : Fin 1024) (q : Fin 2048)
    (hx0 : ∀ κ : Fin 512, x0 (ix2 p κ) = at2 X r (kb * 512 + κ.val)) (hx1 : ∀ κ : Fin 512, x1 (ix2 q κ) = at2 Q o (kb * 512 + κ.val)) :
    k0_pay2 (F := Ideal) x0 x1 (k0_pay1 (F := Ideal)) (ix2 p q) = dotBlk X Q r o kb := by
  rw [pay2_apply, pay1_apply, zero_add]
  exact Finset.sum_congr rfl fun κ _ => by rw [hx0, hx1]

theorem middle_entry (x0 : Vec Ideal S1024x512 .f32) (x1 : Vec Ideal S2048x512 .bf16) (xo : Vec Ideal S1024x2048 .f32)
    (X : S8192x4096.Idx → EReal) (Q : S4096x4096.Idx → EReal) (r o kb : ℕ) (p : Fin 1024) (q : Fin 2048)
    (hx0 : ∀ κ : Fin 512, x0 (ix2 p κ) = at2 X r (kb * 512 + κ.val)) (hx1 : ∀ κ : Fin 512, x1 (ix2 q κ) = at2 Q o (kb * 512 + κ.val)) :
    k0_pay2 (F := Ideal) x0 x1 xo (ix2 p q) = xo (ix2 p q) + dotBlk X Q r o kb := by
  rw [pay2_apply]
  exact congrArg (xo (ix2 p q) + ·) (Finset.sum_congr rfl fun κ _ => by rw [hx0, hx1])

theorem last_entry (x0 : Vec Ideal S1024x512 .f32) (x1 : Vec Ideal S2048x512 .bf16) (x2 : Vec Ideal S1x2048 .f32)
    (xo : Vec Ideal S1024x2048 .f32) (X : S8192x4096.Idx → EReal) (Q : S4096x4096.Idx → EReal) (B : S1x4096.Idx → EReal)
    (r o kb : ℕ) (p : Fin 1024) (q : Fin 2048)
    (hx0 : ∀ κ : Fin 512, x0 (ix2 p κ) = at2 X r (kb * 512 + κ.val)) (hx1 : ∀ κ : Fin 512, x1 (ix2 q κ) = at2 Q o (kb * 512 + κ.val))
    (hx2 : x2 (ix2 (0 : Fin 1) q) = at2 B 0 o) :
    k0_pay3 (F := Ideal) (k0_pay2 (F := Ideal) x0 x1 xo) x2 (ix2 p q) = (xo (ix2 p q) + dotBlk X Q r o kb) + at2 B 0 o := by
  rw [pay3_apply, middle_entry x0 x1 xo X Q r o kb p q hx0 hx1, hx2]

variable (m : (ℓ : Loc nD τ sig) → Buf (Elt Ideal) ℓ)

/-- THE ACCUMULATION, in closed form: what the output's staging block holds after point `n`. -/
theorem outsAt_apply (c : Dev nD) (n : ℕ) : ∀ (h : n < cfg0.N) (p : Fin 1024) (q : Fin 2048),
    outsAt0 m c n h (ix2 p q)
      = accAt (V m c main_v0 : S8192x4096.Idx → EReal) (V m c main_v8 : S4096x4096.Idx → EReal) (V m c main_v1 : S1x4096.Idx → EReal)
          (n / 16) (n / 8 % 2) (n % 8) p.val q.val := by
  induction n with
  | zero =>
    intro h p q
    refine (congrFun ((outsAt0_A m c ⟨0, h⟩ rfl (show ¬(0 % 8 = 7) by decide)).trans
      (out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) _ _ (iblk m c 0 ⟨0, h⟩) (iblk m c 1 ⟨0, h⟩) (iblk m c 2 ⟨0, h⟩))) (ix2 p q)).trans ?_
    refine (first_entry (iblk m c 0 ⟨0, h⟩) (iblk m c 1 ⟨0, h⟩) _ _ _ _ _ p q
      (fun κ => iblk0_apply m c 0 h p κ) (fun κ => iblk1_apply m c 0 h q κ)).trans ?_
    exact accAt_zero _ _ _ _ _ _ _
  | succ n ih =>
    intro h p q
    have hN : n + 1 < 128 := lt_of_lt_of_eq h N_0
    by_cases h0 : (n + 1) % 8 = 0
    · have h1 : ¬(n + 1) % 8 = 7 := by omega
      refine (congrFun ((outsAt0_A m c ⟨n + 1, h⟩ h0 h1).trans
        (out_A (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) _ _
          (iblk m c 0 ⟨n + 1, h⟩) (iblk m c 1 ⟨n + 1, h⟩) (iblk m c 2 ⟨n + 1, h⟩))) (ix2 p q)).trans ?_
      refine (first_entry (iblk m c 0 ⟨n + 1, h⟩) (iblk m c 1 ⟨n + 1, h⟩) _ _ _ _ _ p q
        (fun κ => iblk0_apply m c (n + 1) h p κ) (fun κ => iblk1_apply m c (n + 1) h q κ)).trans ?_
      rw [h0]
      exact accAt_zero _ _ _ _ _ _ _
    · have e1 : (n + 1) / 16 = n / 16 := by omega
      have e2 : (n + 1) / 8 % 2 = n / 8 % 2 := by omega
      have e3 : (n + 1) % 8 = n % 8 + 1 := by omega
      have ihn := ih (Nat.lt_of_succ_lt h) p q
      by_cases h1 : (n + 1) % 8 = 7
      · refine (congrFun ((outsAt0_C m c ⟨n + 1, h⟩ h0 h1).trans
          (out_C (F := Ideal) c (grid0.coords ⟨n + 1, h⟩) (ms0_0 ⟨n + 1, h⟩) (hs0_0 ⟨n + 1, h⟩) (ms0_1 ⟨n + 1, h⟩) (hs0_1 ⟨n + 1, h⟩)
            (ms0_2 ⟨n + 1, h⟩) (hs0_2 ⟨n + 1, h⟩) (ms0_3 ⟨n + 1, h⟩) (hs0_3 ⟨n + 1, h⟩) _ _
            (iblk m c 0 ⟨n + 1, h⟩) (iblk m c 1 ⟨n + 1, h⟩) (iblk m c 2 ⟨n + 1, h⟩)
            (outsAt0 m c n (Nat.lt_of_succ_lt h)))) (ix2 p q)).trans ?_
        refine (last_entry (iblk m c 0 ⟨n + 1, h⟩) (iblk m c 1 ⟨n + 1, h⟩) (iblk m c 2 ⟨n + 1, h⟩) _ _ _ _ _ _ _ p q
          (fun κ => iblk0_apply m c (n + 1) h p κ) (fun κ => iblk1_apply m c (n + 1) h q κ) (iblk2_apply m c (n + 1) h q)).trans ?_
        rw [ihn, e1, e2, e3]
        exact accAt_last _ _ _ _ _ _ _ _ (by omega)
      · refine (congrFun ((outsAt0_B m c ⟨n + 1, h⟩ h0 h1).trans
          (out_B (F := Ideal) c (grid0.coords ⟨n + 1, h⟩) (ms0_0 ⟨n + 1, h⟩) (hs0_0 ⟨n + 1, h⟩) (ms0_1 ⟨n + 1, h⟩) (hs0_1 ⟨n + 1, h⟩)
            (ms0_2 ⟨n + 1, h⟩) (hs0_2 ⟨n + 1, h⟩) (ms0_3 ⟨n + 1, h⟩) (hs0_3 ⟨n + 1, h⟩) _ _
            (iblk m c 0 ⟨n + 1, h⟩) (iblk m c 1 ⟨n + 1, h⟩) (iblk m c 2 ⟨n + 1, h⟩)
            (outsAt0 m c n (Nat.lt_of_succ_lt h)))) (ix2 p q)).trans ?_
        refine (middle_entry (iblk m c 0 ⟨n + 1, h⟩) (iblk m c 1 ⟨n + 1, h⟩) _ _ _ _ _ _ p q
          (fun κ => iblk0_apply m c (n + 1) h p κ) (fun κ => iblk1_apply m c (n + 1) h q κ)).trans ?_
        rw [ihn, e1, e2, e3]
        exact accAt_succ _ _ _ _ _ _ _ _ (by omega) (by omega)

end Cert.KernelIdeal.BodyValue

end
-- ==== Proof.KernelArray.lean ====
/-
  The kernel's result array after the run, on the extended reals.

  The output block is written back once per run of 8 points, at the last one, when it holds the full sum over the 8 feature
  blocks plus the bias. The 16 written blocks (8 row blocks × 2 column blocks) tile the [8192, 4096] array, so entry (r, o) of
  it ends at `∑_{kb < 8} ∑_{κ < 512} X[r, kb·512 + κ] · Q[o, kb·512 + κ] + B[0, o]` of the arrays the kernel was launched on.
-/
import proofs.«166621_j75874892251910_2_alg».proof.Proof.Accum

noncomputable section

namespace Cert.KernelIdeal.BodyValue

open Idealize.ShloMosaic Idealize.ShloMosaic.TcCoe Idealize.ShloMosaic.ValueIdx Idealize.SL.Sem
open Idealize.ShloMosaic.Pipeline (Dat)
open Cert.KernelIdeal Cert.KernelIdeal.Gen

/-- The result array as a function of the three arrays the kernel is launched on. -/
def outArr (X : S8192x4096.Idx → EReal) (Q : S4096x4096.Idx → EReal) (B : S1x4096.Idx → EReal) : S8192x4096.Idx → EReal :=
  fun j => (∑ kb ∈ Finset.range 8, dotBlk X Q (j 0).val (j 1).val kb) + at2 B 0 (j 1).val

variable (m : (ℓ : Loc nD τ sig) → Buf (Elt Ideal) ℓ) (ρ : Dev nD → PrngReg)

/-- The closed form of the accumulation at any index of the block. -/
theorem outsAt_idx (c : Dev nD) (n : ℕ) (h : n < cfg0.N) (y : S1024x2048.Idx) :
    outsAt0 m c n h y
      = accAt (V m c main_v0 : S8192x4096.Idx → EReal) (V m c main_v8 : S4096x4096.Idx → EReal) (V m c main_v1 : S1x4096.Idx → EReal)
          (n / 16) (n / 8 % 2) (n % 8) (y 0).val (y 1).val := by
  obtain ⟨p, q, rfl⟩ : ∃ (p : Fin 1024) (q : Fin 2048), y = ix2 p q := ⟨y 0, y 1, eq_ix2 y⟩
  exact outsAt_apply m c n h p q

/-- What a write-back writes is the block of `outArr` it covers. -/
theorem flushed_eq (c : Dev nD) (t : Fin cfg0.N) (hf : (cfg0.win 3).flush t = true) :
    (dats m 0 c).flushed 3 t = ((cfg0.win 3).blk t).view.read (Elt Ideal)
      (outArr (V m c main_v0 : S8192x4096.Idx → EReal) (V m c main_v8 : S4096x4096.Idx → EReal) (V m c main_v1 : S1x4096.Idx → EReal)) := by
  have h7 : t.val % 8 = 7 := (flush0_3 t).mp hf
  obtain ⟨-, -, -, -, -, -, e0, e1⟩ := idx_facts t
  show (cfg0.win 3).cut (grid0.coords t) ((dats m 0 c).after 3 t) = _
  rw [after0_3]
  funext y
  rw [View.read_apply]
  refine (outsAt_idx m c t.val t.isLt y).trans ?_
  have r0 : ((((cfg0.win 3).blk t).view.emb y) 0).val = t.val / 16 * 1024 + (y 0).val := by
    show win0_3.index t (0 : Fin 2) * 1024 + 1 * (y 0).val = _
    rw [e0]; omega
  have r1 : ((((cfg0.win 3).blk t).view.emb y) 1).val = t.val / 8 % 2 * 2048 + (y 1).val := by
    show win0_3.index t (1 : Fin 2) * 2048 + 1 * (y 1).val = _
    rw [e1]; omega
  unfold outArr accAt
  rw [h7, if_pos rfl]
  show _ = (∑ kb ∈ Finset.range 8, dotBlk _ _ ((((cfg0.win 3).blk t).view.emb y) 0).val ((((cfg0.win 3).blk t).view.emb y) 1).val kb)
    + at2 _ 0 ((((cfg0.win 3).blk t).view.emb y) 1).val
  rw [r0, r1]

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v9).slice (win0_3.rect t)).set ↔ _
  rw [View.set_slice_whole, Rect.mem_set_unit]
  exact Iff.rfl

/-- Every index of the array is in the block some last point of a run writes back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨tn, htn⟩ : ∃ tn : ℕ, tn = (i 0).val / 1024 * 16 + (i 1).val / 2048 * 8 + 7 := ⟨_, rfl⟩
  have hlt : tn < cfg0.N := by rw [show cfg0.N = 128 from N_0]; omega
  obtain ⟨-, -, -, -, -, -, e0, e1⟩ := idx_facts ⟨tn, hlt⟩
  refine ⟨⟨tn, hlt⟩, (flush0_3 ⟨tn, hlt⟩).mpr (by show tn % 8 = 7; omega), ?_⟩
  rw [mem_blk]
  intro a
  match a with
  | ⟨0, _⟩ =>
    show win0_3.index ⟨tn, hlt⟩ (0 : Fin 2) * 1024 ≤ (i 0).val ∧ (i 0).val < win0_3.index ⟨tn, hlt⟩ (0 : Fin 2) * 1024 + 1024
    rw [e0]; dsimp only; omega
  | ⟨1, _⟩ =>
    show win0_3.index ⟨tn, hlt⟩ (1 : Fin 2) * 2048 ≤ (i 1).val ∧ (i 1).val < win0_3.index ⟨tn, hlt⟩ (1 : Fin 2) * 2048 + 2048
    rw [e1]; dsimp only; omega

/-- THE RESULT ARRAY after the run. -/
theorem final (c : Dev nD) : (dats m 0 c).arrAt 3 cfg0.N
    = outArr (V m c main_v0 : S8192x4096.Idx → EReal) (V m c main_v8 : S4096x4096.Idx → EReal) (V m c main_v1 : S1x4096.Idx → EReal) :=
  (dats m 0 c).arrAt_eq_of_cover 3 _ (flushed_eq m c) cover

end Cert.KernelIdeal.BodyValue

end
-- ==== Proof.KernelRun.lean ====
/-
  The kernel's run, read: the host lines before the launch (the activations flattened to [8192, 4096], the bias to [1, 4096],
  the weights replaced by their ternary values and narrowed to bf16, which changes nothing on the extended reals), the
  launch, and the one host line after it (the result unflattened to [4, 2048, 4096]).
-/
import proofs.«166621_j75874892251910_2_alg».proof.Proof.KernelArray
import Idealize.ShloMosaic.Lib.StableHlo.Run

noncomputable section

namespace Cert.KernelIdeal.BodyValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The kernel is launched on the activations flattened, -/
theorem V_v0 (c : Dev nD) : (V m c main_v0 : S8192x4096.Idx → EReal)
    = shapeCast S8192x4096 (m ((c : Thread nD τ).loc main_arg0)) shapeCasts_S4x2048x4096_S8192x4096 := by
  show StableHlo.after (hostOps0 (F := Ideal)) (fun b => m (c, b)) (Proc.devRef .tc main_v0) = _
  after_results
  rfl

/-- the bias as one row, -/
theorem V_v1 (c : Dev nD) : (V m c main_v1 : S1x4096.Idx → EReal)
    = shapeCast S1x4096 (m ((c : Thread nD τ).loc main_arg2)) shapeCasts_S4096_S1x4096 := by
  show StableHlo.after (hostOps0 (F := Ideal)) (fun b => m (c, b)) (Proc.devRef .tc main_v1) = _
  after_results
  rfl

/-- and the ternary weights. -/
theorem V_v8 (c : Dev nD) : (V m c main_v8 : S4096x4096.Idx → EReal)
    = truncf (F := Ideal) .bf16 (mulf (F := Ideal) (Host.sign (m ((c : Thread nD τ).loc main_arg1)))
        (uitofp (F := Ideal) .f32 (cmpf (F := Ideal) .ogt (Host.absf (m ((c : Thread nD τ).loc main_arg1)))
          (broadcastInDim S4096x4096 ![] bcast_S_S4096x4096 (constant (F := Ideal) S_ .f32 0x3DCCCCCD#32))))) bitsLt_bf16_f32 := by
  show StableHlo.after (hostOps0 (F := Ideal)) (fun b => m (c, b)) (Proc.devRef .tc main_v8) = _
  after_results

/-- The program's result is the result array unflattened. -/
theorem tail_eq (c : Dev nD) : Pipeline.afterTail₀ cfgs (dats m) 0 (V0 m) [hostOps1] c main_v10
    = shapeCast S4x2048x4096
        (outArr (V m c main_v0 : S8192x4096.Idx → EReal) (V m c main_v8 : S4096x4096.Idx → EReal) (V m c main_v1 : S1x4096.Idx → EReal))
        shapeCasts_S8192x4096_S4x2048x4096 := by
  unfold Pipeline.afterTail₀
  show StableHlo.after (hostOps1 (F := Ideal)) _ (Proc.devRef .tc main_v10) = _
  after_results
  have hw : (Pipeline.withArrays (cfgs 0).spec c (V0 m c) (fun w => (dats m 0 c).arrAt w (cfgs 0).N) (Proc.devRef .tc main_v9)
        : S8192x4096.Idx → EReal)
      = outArr (V m c main_v0 : S8192x4096.Idx → EReal) (V m c main_v8 : S4096x4096.Idx → EReal) (V m c main_v1 : S1x4096.Idx → EReal) :=
    (Pipeline.withArrays_arr spec0 launch0.win.arr_inj c _ _ 3).trans (final m c)
  funext i
  show shapeCast S4x2048x4096 (Pipeline.withArrays (cfgs 0).spec c (V0 m c) (fun w => (dats m 0 c).arrAt w (cfgs 0).N)
      (Proc.devRef .tc main_v9) : S8192x4096.Idx → EReal) shapeCasts_S8192x4096_S4x2048x4096 i = _
  rw [hw]

/-- THE KERNEL'S RUN, READ: every weakly fair execution terminates with the result at the result array unflattened and the
    three arguments as they were. -/
theorem run : θ_run defs (onTc (τ := τ) (main (F := Ideal))) ⟨m, fun _ => 0, ρ⟩ fun r => ∀ c : Dev nD,
      r.2.mem ((c.tc : Thread nD τ).loc main_v10) = shapeCast S4x2048x4096
          (outArr (V m c main_v0 : S8192x4096.Idx → EReal) (V m c main_v8 : S4096x4096.Idx → EReal) (V m c main_v1 : S1x4096.Idx → EReal))
          shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.BodyValue

end
-- ==== Proof.Bridge.lean ====
/-
  The kernel's result is the layer.

  Entry (a, s, o) of the unflattened result is entry (a · 2048 + s, o) of the result array (the same row-major position);
  there the 8 block sums of 512 products each are the one sum of 4096 products (addition regrouped only); row
  `a · 2048 + s` of the flattened activations is row (a, s) of the activations; the weights the kernel is launched on are the
  ternary weights entry by entry; and the bias row's column `o` is `bias[o]`.
-/
import proofs.«166621_j75874892251910_2_alg».proof.Proof.KernelArray
import proofs.«166621_j75874892251910_2_alg».proof.Proof.Spec

noncomputable section

namespace Cert.KernelIdeal.BodyValue

open Idealize.ShloMosaic Idealize.ShloMosaic.ValueIdx
open Cert.KernelIdeal Cert.KernelIdeal.Gen TernaryLinear

/-- The weights as the host lines before the launch leave them: sign times the comparison with 0.1, narrowed to bf16. -/
abbrev ternW (a1 : FVec Ideal S4096x4096 .f32) : FVec Ideal S4096x4096 .bf16 :=
  truncf (F := Ideal) .bf16 (mulf (F := Ideal) (Host.sign a1)
    (uitofp (F := Ideal) .f32 (cmpf (F := Ideal) .ogt (Host.absf a1)
      (broadcastInDim S4096x4096 ![] bcast_S_S4096x4096 (constant (F := Ideal) S_ .f32 0x3DCCCCCD#32))))) bitsLt_bf16_f32

/-- Entry by entry they are the ternary weights. -/
theorem ternW_apply (a1 : FVec Ideal S4096x4096 .f32) (j : S4096x4096.Idx) : ternW a1 j = tern (a1 j) := by
  have hb : (broadcastInDim S4096x4096 ![] bcast_S_S4096x4096 (constant (F := Ideal) S_ .f32 0x3DCCCCCD#32) : FVec Ideal S4096x4096 .f32) j
      = FloatOps.ofBits (F := Ideal) .f32 0x3DCCCCCD#32 :=
    broadcastInDim_apply _ bcast_S_S4096x4096 (constant (F := Ideal) S_ .f32 0x3DCCCCCD#32) j ix0 (fun a => a.elim0)
  show FloatOps.mulf (F := Ideal) (φ := .f32) (FloatOps.hostUnary (F := Ideal) (φ := .f32) .sign (a1 j))
      (FloatOps.uitofp (F := Ideal) .f32 (FloatOps.cmpf (F := Ideal) (φ := .f32) .ogt (FloatOps.hostAbsf (F := Ideal) (φ := .f32) (a1 j))
        ((broadcastInDim S4096x4096 ![] bcast_S_S4096x4096 (constant (F := Ideal) S_ .f32 0x3DCCCCCD#32) : FVec Ideal S4096x4096 .f32) j))) = _
  rw [hb]
  rfl

/-- THE KERNEL'S RESULT IS THE LAYER of the three arguments. -/
theorem unflatten_eq (a0 : FVec Ideal S4x2048x4096 .f32) (a1 : FVec Ideal S4096x4096 .f32) (a2 : FVec Ideal S4096 .f32) :
    shapeCast S4x2048x4096
        (outArr (shapeCast S8192x4096 a0 shapeCasts_S4x2048x4096_S8192x4096) (ternW a1) (shapeCast S1x4096 a2 shapeCasts_S4096_S1x4096))
        shapeCasts_S8192x4096_S4x2048x4096
      = linear a0 a1 a2 := by
  funext i
  obtain ⟨a, s, o, rfl⟩ : ∃ (a : Fin 4) (s : Fin 2048) (o : Fin 4096), i = ix3 a s o := ⟨i 0, i 1, i 2, eq_ix3 i⟩
  have ha : a.val < 4 := a.isLt
  have hs : s.val < 2048 := s.isLt
  have hr : a.val * 2048 + s.val < 8192 := by omega
  rw [shapeCast_apply _ shapeCasts_S8192x4096_S4x2048x4096 (ix3 a s o) (ix2 (⟨a.val * 2048 + s.val, hr⟩ : Fin 8192) o) (by
    rw [Shape.rowMajor_val_two, Shape.rowMajor_val_three]; rfl)]
  show (∑ kb ∈ Finset.range 8, dotBlk _ _ (a.val * 2048 + s.val) o.val kb) + at2 _ 0 o.val = linearAt a0 a1 a2 a s o
  unfold linearAt
  congr 1
  · unfold dotBlk
    refine (sum_blocks 8 512 (fun k => at2 (shapeCast S8192x4096 a0 shapeCasts_S4x2048x4096_S8192x4096) (a.val * 2048 + s.val) k
      * at2 (ternW a1) o.val k)).trans ?_
    show ∑ k : Fin 4096, at2 (shapeCast S8192x4096 a0 shapeCasts_S4x2048x4096_S8192x4096) (a.val * 2048 + s.val) k.val
      * at2 (ternW a1) o.val k.val = _
    refine Finset.sum_congr rfl fun k _ => ?_
    rw [at2_ix2 (ternW a1) o k, ternW_apply,
      show at2 (shapeCast S8192x4096 a0 shapeCasts_S4x2048x4096_S8192x4096) (a.val * 2048 + s.val) k.val
        = shapeCast S8192x4096 a0 shapeCasts_S4x2048x4096_S8192x4096 (ix2 (⟨a.val * 2048 + s.val, hr⟩ : Fin 8192) k) from
        at2_ix2 _ (⟨a.val * 2048 + s.val, hr⟩ : Fin 8192) k,
      shapeCast_apply a0 shapeCasts_S4x2048x4096_S8192x4096 (ix2 (⟨a.val * 2048 + s.val, hr⟩ : Fin 8192) k) (ix3 a s k) (by
        rw [Shape.rowMajor_val_two, Shape.rowMajor_val_three]; rfl)]
  · rw [show at2 (shapeCast S1x4096 a2 shapeCasts_S4096_S1x4096) 0 o.val
        = shapeCast S1x4096 a2 shapeCasts_S4096_S1x4096 (ix2 (0 : Fin 1) o) from at2_ix2 _ (0 : Fin 1) o,
      shapeCast_apply a2 shapeCasts_S4096_S1x4096 (ix2 (0 : Fin 1) o) (ix1 o) (by
        rw [Shape.rowMajor_val_two, Shape.rowMajor_val_one]; show o.val = 0 * 4096 + o.val; omega)]

end Cert.KernelIdeal.BodyValue

end
-- ==== Proof.FiniteWeights.lean ====
/-
  What the precondition gives: every weight is a real number.

  The precondition is the conjunction of three `all`s, one per argument, each of `|v| < +∞` entry by entry. Its middle
  conjunct, read at one entry of the weights, says `max w (-w) < ⊤` on the extended reals, so `w` is neither `⊤` nor `⊥`.
-/
import proofs.«166621_j75874892251910_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.Finite

open Idealize.ShloMosaic Cert.Pre_finite_inputs

variable [Cert.Pre_finite_inputs.Facts]
open Cert.Pre_finite_inputs.Facts

instance : Subsingleton S_.Idx := ⟨fun a b => funext fun d => d.elim0⟩

/-- The f32 word 0x7F800000 is `+∞`. -/
theorem ofBits_inf : Ideal.ofBits .f32 0x7F800000#32 = (⊤ : EReal) := by simp [Ideal.ofBits, Ideal.ieee]

/-- Under the precondition every weight is a real number. -/
theorem weight_real (a0 : FVec Ideal S4x2048x4096 .f32) (a1 : FVec Ideal S4096x4096 .f32) (a2 : FVec Ideal S4096 .f32)
    (h : fn (F := Ideal) a0 a1 a2 = fun _ => 1#1) (j : S4096x4096.Idx) : a1 j ≠ (⊤ : EReal) ∧ a1 j ≠ (⊥ : EReal) := by
  have h0 := congrFun h ValueIdx.ix0
  dsimp only [fn] at h0
  obtain ⟨h01, -⟩ := IntOp.andi_eq_one.1 h0
  obtain ⟨-, h7⟩ := IntOp.andi_eq_one.1 h01
  have hj := Host.reduce_andi_all _ _ _ _ _ h7 j
  have hb : (broadcastInDim S4096x4096 ![] bcast_S_S4096x4096 (constant (F := Ideal) S_ .f32 0x7F800000#32) : FVec Ideal S4096x4096 .f32) j
      = (⊤ : EReal) :=
    (broadcastInDim_apply _ bcast_S_S4096x4096 (constant (F := Ideal) S_ .f32 0x7F800000#32) j ValueIdx.ix0 (fun a => a.elim0)).trans ofBits_inf
  have hlt : a1 j < (⊤ : EReal) ∧ -(a1 j) < (⊤ : EReal) := by
    have h' : Ideal.cmp .olt (max (a1 j) (-(a1 j)))
        ((broadcastInDim S4096x4096 ![] bcast_S_S4096x4096 (constant (F := Ideal) S_ .f32 0x7F800000#32) : FVec Ideal S4096x4096 .f32) j) = 1#1 := hj
    rw [hb] at h'
    change BitVec.ofBool (decide (max (a1 j) (-(a1 j)) < (⊤ : EReal))) = 1#1 at h'
    have hd : decide (max (a1 j) (-(a1 j)) < (⊤ : EReal)) = true := by
      cases hd : decide (max (a1 j) (-(a1 j)) < (⊤ : EReal)) with
      | true => rfl
      | false => rw [hd] at h'; exact absurd h' (by decide)
    exact max_lt_iff.1 (of_decide_eq_true hd)
  refine ⟨fun e => ?_, fun e => ?_⟩
  · rw [e] at hlt; exact absurd hlt.1 (lt_irrefl _)
  · rw [e] at hlt; simp at hlt

end Cert.Pre_finite_inputs.Finite

end
-- ==== Proof.lean ====
/-
  A ternary linear layer: `out[a, s, o] = ∑ₖ x[a, s, k] · tern w[o, k] + bias[o]`, where `tern w` is the sign of `w` where
  `|w| > 0.1` and zero elsewhere; `x` is f32[4, 2048, 4096], `w` f32[4096, 4096], `bias` f32[4096].

  The kernel flattens `x` to [8192, 4096], forms the ternary weights once on the host, and tiles the product: output blocks
  [1024, 2048], the 4096 input features contracted in 8 blocks of 512 along the innermost grid axis, the output block kept in
  place across them — zeroed at the first, the bias row added at the last, written back once. The reference forms the
  straight-through weight `w + (tern w - w)` and contracts all 4096 features at once.

  On the extended reals the two agree when every weight is a real number, which the precondition says:
    * `w + (q - w) = q` for a real `w` and any `q` (Proof/SumLaws.lean; false for `w = ±∞`);
    * 8 block sums of 512 terms are the one sum of 4096 terms — addition only regrouped, which the extended reals allow with
      no finiteness (Proof/SumLaws.lean);
    * narrowing to bf16 is the identity, and the matrix unit into a zero accumulator is the plain sum of products.
  The kernel's side: Proof/BodyCases.lean (what each of the three kinds of grid point leaves in the output block),
  Proof/PayloadAt.lean (those values at an entry), Proof/Blocks.lean (where each block sits in its array), Proof/Accum.lean (the
  block after every point, in closed form, by induction on the point), Proof/KernelArray.lean (the result array),
  Proof/KernelRun.lean (the host lines around the launch), Proof/Bridge.lean (that array unflattened is the layer). The
  reference's side: Proof/RefRead.lean. The weights' finiteness: Proof/FiniteWeights.lean. The layer itself: Proof/Spec.lean.
  No rewrite was made when the kernel was idealized, so there is nothing to preserve.
-/
import proofs.«166621_j75874892251910_2_alg».proof.Defs
import proofs.«166621_j75874892251910_2_alg».proof.Proof.Gen.Kernel
import proofs.«166621_j75874892251910_2_alg».proof.Proof.Gen.Kernel.Frame
import proofs.«166621_j75874892251910_2_alg».proof.Proof.Gen.KernelIdeal
import proofs.«166621_j75874892251910_2_alg».proof.Proof.Gen.KernelIdeal.Frame
import proofs.«166621_j75874892251910_2_alg».proof.Proof.Gen.ReferenceIdeal
import proofs.«166621_j75874892251910_2_alg».proof.Proof.Gen.Pre_finite_inputs
import proofs.«166621_j75874892251910_2_alg».proof.Proof.RefRead
import proofs.«166621_j75874892251910_2_alg».proof.Proof.KernelRun
import proofs.«166621_j75874892251910_2_alg».proof.Proof.Bridge
import proofs.«166621_j75874892251910_2_alg».proof.Proof.FiniteWeights
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the layer of the arguments: the kernel's result array unflattened is the layer, and the reference's
    term is the layer once every weight is real. -/
theorem algebraic : Cert.algebraic_KernelIdeal_ReferenceIdeal := by
  intro m ρ m' ρ' hpre hagree
  refine ⟨fun c => TernaryLinear.linear (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.BodyValue.run m ρ)
    rw [Cert.KernelIdeal.BodyValue.V_v0 m c, Cert.KernelIdeal.BodyValue.V_v1 m c, Cert.KernelIdeal.BodyValue.V_v8 m c]
    exact Cert.KernelIdeal.BodyValue.unflatten_eq _ _ _
  · refine (θ_run Cert.ReferenceIdeal.defs _ _).mono (fun r h c => ⟨(h c).1.trans ?_, (h c).2⟩) (Cert.ReferenceIdeal.Value.run (F := Ideal) m' ρ')
    rw [(hagree c).1, (hagree c).2.1, (hagree c).2.2, Cert.ReferenceIdeal.Read.val_main_v11_eq]
    exact Cert.ReferenceIdeal.RefValue.result_eq _ _ _ (Cert.Pre_finite_inputs.Finite.weight_real _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
